-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  main_v3
-- ==== Kernel.lean ====
abbrev S8x4096x512 : Shape := ⟨3, ![8, 4096, 512]⟩
abbrev S8x1x512 : Shape := ⟨3, ![8, 1, 512]⟩
abbrev S1x1x512 : Shape := ⟨3, ![1, 1, 512]⟩
abbrev S1x1024x512 : Shape := ⟨3, ![1, 1024, 512]⟩
abbrev S1x1 : Shape := ⟨2, ![1, 1]⟩
abbrev S1x512 : Shape := ⟨2, ![1, 512]⟩
abbrev S1024x512 : Shape := ⟨2, ![1024, 512]⟩
abbrev S1x1024 : Shape := ⟨2, ![1, 1024]⟩
abbrev S1 : Shape := ⟨1, ![1]⟩
abbrev S8x512 : Shape := ⟨2, ![8, 512]⟩

abbrev nBuf : Space → Nat
  | .hbm => 4
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8x1x512, .f32⟩
  | .hbm, ⟨2, _⟩ => ⟨S8x1x512, .f32⟩
  | .hbm, ⟨3, _⟩ => ⟨S8x512, .f32⟩
  | .local _ .vmem, ⟨0, _⟩ => ⟨S1x1x512, .f32⟩
  | .local _ .vmem, ⟨1, _⟩ => ⟨S1x1x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x1, .f32⟩
  | .local _ .vmem, ⟨7, _⟩ => ⟨S1x1, .f32⟩
  | .local _ .vmem, ⟨8, _⟩ => ⟨S1x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_21 : BitVec 32 := 0#32
  let v41 : BitVec 1 := Scalar.cmpi .ne v40 c0_i32_21
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S8x4096x512_S8x1x512_0_4095_0 : S8x4096x512.Slices ![0, 4095, 0] S8x1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1x1024_S1 : S1x1024.Reduces [1] S1
  shapeCasts_S1_S1x1 : S1.ShapeCasts S1x1
  broadcasts_S1x1_S1x1024 : S1x1.Broadcasts S1x1024
  broadcasts_S1x1_S1x512 : S1x1.Broadcasts S1x512
  shapeCasts_S1x512_S1x1x512 : S1x512.ShapeCasts S1x1x512
  shapeCasts_S8x1x512_S8x512 : S8x1x512.ShapeCasts S8x512
  dot_S1x512_S1024x512_S1x1024_1_1_0_0_n_n_wf : DotDims.WF S1x512 S1024x512 S1x1024 [1] [1] [0] [0] [] []
  dot_S1x1024_S1024x512_S1x512_1_0_0_1_n_n_wf : DotDims.WF S1x1024 S1024x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S8x1x512.size a
  hwx0_0 : ∀ i : grid0.Coords, EltTy.bits .f32 = 32 ∨ (Rect.block (s := S8x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .f32 = 32 ∨ (Rect.block (s := S8x4096x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)

variable [Facts₀]

def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev win0_0 : Pipeline.Window sig grid0 :=
  Pipeline.Window.ofSpec (Memref.whole main_v0) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x512 : Shape := ⟨3, ![8, 4096, 512]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x512 : Shape := ⟨3, ![8, 1, 512]⟩
abbrev S8x512 : Shape := ⟨2, ![8, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x4096, .f32⟩
  | .hbm, ⟨2, _⟩ => ⟨S_, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S8x4096x1, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x4096x512, .f32⟩
  | .hbm, ⟨17, _⟩ => ⟨S8x1x512, .f32⟩
  | .hbm, ⟨18, _⟩ => ⟨S8x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  slices_S8x4096x512_S8x1x512_0_4095_0 : S8x4096x512.Slices ![0, 4095, 0] S8x1x512
  shapeCasts_S8x1x512_S8x512 : S8x1x512.ShapeCasts S8x512
  dot_S8x4096x512_S8x4096x512_S8x4096x4096_2_2_1_1_0_0_wf : DotDims.WF S8x4096x512 S8x4096x512 S8x4096x4096 [2] [2] [1] [1] [0] [0]
  dot_S8x4096x4096_S8x4096x512_S8x4096x512_2_1_1_2_0_0_wf : DotDims.WF S8x4096x4096 S8x4096x512 S8x4096x512 [2] [1] [1] [2] [0] [0]

variable [Facts₀]

def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf
def dot_S8x4096x4096_S8x4096x512_S8x4096x512_2_1_1_2_0_0 : DotDims S8x4096x4096 S8x4096x512 S8x4096x512 where
  lhsContracting := [2]
  rhsContracting := [1]
  lhsNonContracting := [1]
  rhsNonContracting := [2]
  lhsBatch := [0]
  rhsBatch := [0]
  wf := dot_S8x4096x4096_S8x4096x512_S8x4096x512_2_1_1_2_0_0_wf

class Facts : Prop extends Facts₀ where

variable [Facts]
-- ==== Proof.LibLogShift.lean ====
/-
  The shift law behind a log-domain normalisation, on the extended reals.

  Fix a finite family `L n` of extended reals, none of them `+∞` (think `L n = log a n` of real numbers `a n`:
  a real number's logarithm is a real number or `-∞`). Write `M` for the family's maximum (the fold of `max`
  from `-∞`), `e n = exp (L n - M)` for the shifted exponentials, `ls = log (∑ n, e n)`, and
  `lw n = (L n - M) - ls` for the normalised logarithms. Two programs may carry the normaliser differently:
  one keeps `e n` and the offset `M - (ls + M)`; the other recomputes the maximum `w` of the `lw n` and
  uses `exp (lw n - w)` and the offset `w`. The law says these are the same numbers:

      w = M - (ls + M)        and        exp (lw n - w) = e n   for every n.

  There are two cases. If `M` is a real number `m`, some `L n` equals `m`, every shifted term `L n - M` is
  `≤ 0` (a real number or `-∞`) and one of them is `0`; so `∑ e` is a real number `≥ 1`, `ls` is a real number,
  the maximum of the `lw n` is `0 - ls`, and everything is arithmetic of real numbers (with `-∞` absorbing).
  If `M = -∞`, every `L n` is `-∞`; with the conventions `-∞ - (-∞) = -∞`, `exp (-∞) = 0`, `log 0 = -∞` both
  sides are `-∞` and `0`. (`M = +∞` is excluded by the hypothesis, and is where the law would fail.)
-/
import Idealize.ShloMosaic.PureOps.Ideal
import Mathlib.Data.Finset.Fold

noncomputable section

namespace Cert.LogShift

open Idealize.ShloMosaic

variable {ι : Type} [Fintype ι]

/-- The maximum of a finite family as both programs compute it: the fold of `max` from `-∞`. -/
def cmax (L : ι → EReal) : EReal := (Finset.univ : Finset ι).fold max ⊥ L

theorem le_cmax (L : ι → EReal) (n : ι) : L n ≤ cmax L :=
  (Finset.le_fold_max (L n)).mpr (Or.inr ⟨n, Finset.mem_univ n, le_rfl⟩)

theorem cmax_le {L : ι → EReal} {b : EReal} (h : ∀ n, L n ≤ b) : cmax L ≤ b :=
  (Finset.fold_max_le b).mpr ⟨bot_le, fun n _ => h n⟩

/-- A maximum that is not `-∞` is attained. -/
theorem exists_eq_cmax {L : ι → EReal} (h : cmax L ≠ ⊥) : ∃ n, L n = cmax L := by
  rcases (Finset.le_fold_max (cmax L)).mp (le_refl (cmax L)) with h0 | ⟨n, -, hn⟩
  · exact absurd (le_bot_iff.mp h0) h
  · exact ⟨n, le_antisymm (le_cmax L n) hn⟩

theorem cmax_eq_bot {L : ι → EReal} (h : ∀ n, L n = ⊥) : cmax L = ⊥ :=
  le_bot_iff.mp (cmax_le fun n => (h n).le)

theorem eq_bot_of_cmax_eq_bot {L : ι → EReal} (h : cmax L = ⊥) (n : ι) : L n = ⊥ :=
  le_bot_iff.mp (h ▸ le_cmax L n)

theorem cmax_ne_top {L : ι → EReal} (h : ∀ n, L n ≠ ⊤) : cmax L ≠ ⊤ := by
  intro e
  rcases (Finset.le_fold_max ⊤).mp (le_of_eq e.symm) with h0 | ⟨n, -, hn⟩
  · exact absurd (top_le_iff.mp h0) (by decide)
  · exact h n (top_le_iff.mp hn)

/-- A fold of `max` that starts from `-∞` is the family's maximum. -/
theorem fold_eq_cmax {N : ℕ} (f g : Fin N → EReal) (b : EReal) (hb : b = ⊥) (h : ∀ n, f n = g n) :
    (Finset.univ : Finset (Fin N)).fold max b f = cmax g := by
  subst hb
  exact congrArg (fun u => (Finset.univ : Finset (Fin N)).fold max ⊥ u) (funext h)

/-- The f32 word `0xFF800000` denotes `-∞`. -/
theorem neg_inf : Ideal.ofBits .f32 0xFF800000#32 = (⊥ : EReal) := by
  simp [Ideal.ofBits, Ideal.ieee]

/-- A finite sum of real numbers, taken in the extended reals, is the real sum. -/
theorem coe_sum (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

/-- The logarithm of a number other than `+∞` is not `+∞`. -/
theorem log_ne_top {a : EReal} (h : a ≠ ⊤) : Ideal.log a ≠ ⊤ := by
  induction a using EReal.rec with
  | bot => simp
  | top => exact absurd rfl h
  | coe r =>
    rw [Ideal.log_coe]
    split
    · decide
    · exact EReal.coe_ne_top _

/-- THE SHIFT LAW (the file's header). -/
theorem shift_law (L : ι → EReal) (hL : ∀ n, L n ≠ ⊤) :
    cmax (fun n => L n - cmax L - Ideal.log (∑ n, Ideal.exp (L n - cmax L)))
        = cmax L - (Ideal.log (∑ n, Ideal.exp (L n - cmax L)) + cmax L)
      ∧ ∀ n, Ideal.exp (L n - cmax L - Ideal.log (∑ n, Ideal.exp (L n - cmax L))
            - cmax (fun n => L n - cmax L - Ideal.log (∑ n, Ideal.exp (L n - cmax L))))
          = Ideal.exp (L n - cmax L) := by
  have hM := cmax_ne_top hL
  generalize hMd : cmax L = M at hM ⊢
  induction M using EReal.rec with
  | top => exact absurd rfl hM
  | bot =>
    -- every term is -∞
    have hb : ∀ n, L n = ⊥ := eq_bot_of_cmax_eq_bot hMd
    have hsh : ∀ n, L n - ⊥ = ⊥ := fun n => by rw [hb n]; rfl
    simp only [hsh, Ideal.exp_bot, Finset.sum_const_zero]
    have hl0 : Ideal.log 0 = ⊥ := by
      rw [show (0 : EReal) = ((0 : ℝ) : EReal) from rfl, Ideal.log_coe, if_pos le_rfl]
    rw [hl0]
    have hbb : (⊥ : EReal) - ⊥ = ⊥ := rfl
    have hc : cmax (fun _ : ι => (⊥ : EReal) - ⊥) = ⊥ := cmax_eq_bot fun _ => hbb
    rw [hc]
    refine ⟨?_, fun n => ?_⟩
    · simp [hbb]
    · rw [hbb, hbb, Ideal.exp_bot]
  | coe m =>
    -- the maximum is a real number m, attained at some n₀
    obtain ⟨n₀, hn₀⟩ : ∃ n, L n = (m : EReal) := by
      have := exists_eq_cmax (L := L) (by rw [hMd]; exact EReal.coe_ne_bot m)
      rwa [hMd] at this
    have hle : ∀ n, L n ≤ (m : EReal) := fun n => hMd ▸ le_cmax L n
    -- each shifted term is -∞ or a real number ≤ 0; its exponential is a real number in [0, 1]
    have hsh : ∀ n, L n - (m : EReal) = ⊥ ∨ ∃ s : ℝ, s ≤ 0 ∧ L n - (m : EReal) = (s : EReal) := by
      intro n
      have h1 := hL n; have h2 := hle n
      induction hLn : L n using EReal.rec with
      | bot => exact Or.inl rfl
      | top => exact absurd hLn h1
      | coe l =>
        rw [hLn] at h2
        exact Or.inr ⟨l - m, by have := EReal.coe_le_coe_iff.mp h2; linarith, (EReal.coe_sub l m).symm⟩
    have hex : ∀ n, ∃ r : ℝ, 0 ≤ r ∧ Ideal.exp (L n - (m : EReal)) = (r : EReal) := by
      intro n
      rcases hsh n with h | ⟨s, -, h⟩
      · exact ⟨0, le_rfl, by rw [h, Ideal.exp_bot]; rfl⟩
      · exact ⟨Real.exp s, (Real.exp_pos s).le, by rw [h, Ideal.exp_coe]⟩
    choose er her0 her using hex
    have hsum : (∑ n, Ideal.exp (L n - (m : EReal))) = ((∑ n, er n : ℝ) : EReal) := by
      rw [← coe_sum]; exact Finset.sum_congr rfl fun n _ => her n
    have her1 : er n₀ = 1 := by
      have := her n₀
      rw [hn₀, ← EReal.coe_sub, sub_self, Ideal.exp_coe, Real.exp_zero] at this
      exact (EReal.coe_eq_coe_iff.mp this).symm
    have hSpos : 0 < ∑ n, er n :=
      lt_of_lt_of_le (by rw [her1]; exact one_pos)
        (Finset.single_le_sum (f := er) (fun n _ => her0 n) (Finset.mem_univ n₀))
    have hls : Ideal.log (∑ n, Ideal.exp (L n - (m : EReal))) = ((Real.log (∑ n, er n) : ℝ) : EReal) := by
      rw [hsum, Ideal.log_coe, if_neg (not_le.mpr hSpos)]
    rw [hls]
    generalize Real.log (∑ n, er n) = lam
    -- the recomputed maximum is 0 - ls
    have hw : cmax (fun n => L n - (m : EReal) - (lam : EReal)) = ((-lam : ℝ) : EReal) := by
      apply le_antisymm
      · apply cmax_le
        intro n
        rcases hsh n with h | ⟨s, hs, h⟩
        · rw [h]; exact bot_le
        · rw [h, ← EReal.coe_sub]; exact EReal.coe_le_coe_iff.mpr (by linarith)
      · have := le_cmax (fun n => L n - (m : EReal) - (lam : EReal)) n₀
        refine le_trans (le_of_eq ?_) this
        show _ = L n₀ - (m : EReal) - (lam : EReal)
        rw [hn₀, ← EReal.coe_sub, ← EReal.coe_sub]; congr 1; ring
    rw [hw]
    refine ⟨?_, fun n => ?_⟩
    · rw [← EReal.coe_add, ← EReal.coe_sub]; congr 1; ring
    · rcases hsh n with h | ⟨s, -, h⟩
      · rw [h]; rfl
      · rw [h, ← EReal.coe_sub, ← EReal.coe_sub]; congr 2; ring

/-! ## One entry of a log-domain matrix product, written both ways

  Entry `(b, k)` of the product depends on row `b` of the left matrix (`x n`) and column `k` of the right one
  (`a n`). With `L n = log (a n)`: both programs compute `log (∑ n, exp (x n - max x) · R n) + max x + w`; one takes
  `R n = exp (L n - M)` and `w = M - (ls + M)`, the other `R n = exp (lw n - max lw)` and `w = max lw`. -/

/-- `log ∑ exp` of the family shifted by its maximum. -/
def lse (L : ι → EReal) : EReal := Ideal.log (∑ n, Ideal.exp (L n - cmax L))

/-- The normalised logarithms `(L n - M) - ls`. -/
def lw (L : ι → EReal) (n : ι) : EReal := L n - cmax L - lse L

/-- The shift law over the two names above. -/
theorem shift_law' (L : ι → EReal) (hL : ∀ n, L n ≠ ⊤) :
    cmax (lw L) = cmax L - (lse L + cmax L) ∧ ∀ n, Ideal.exp (lw L n - cmax (lw L)) = Ideal.exp (L n - cmax L) :=
  shift_law L hL

/-- The entry with the shifted exponentials kept and the offset `M - (ls + M)`. -/
def entryK (x a : ι → EReal) : EReal :=
  Ideal.log (∑ n, Ideal.exp (x n - cmax x) * Ideal.exp (Ideal.log (a n) - cmax fun n => Ideal.log (a n)))
    + cmax x + (cmax (fun n => Ideal.log (a n)) - (lse (fun n => Ideal.log (a n)) + cmax fun n => Ideal.log (a n)))

/-- The entry with the maximum of the normalised logarithms recomputed. -/
def entryR (x a : ι → EReal) : EReal :=
  Ideal.log (∑ n, Ideal.exp (x n - cmax x) * Ideal.exp (lw (fun n => Ideal.log (a n)) n - cmax (lw fun n => Ideal.log (a n))))
    + cmax x + cmax (lw fun n => Ideal.log (a n))

/-- The two entries are one number when no `a n` is `+∞`. -/
theorem entryR_eq_entryK (x a : ι → EReal) (ha : ∀ n, a n ≠ ⊤) : entryR x a = entryK x a := by
  obtain ⟨h1, h2⟩ := shift_law' (fun n => Ideal.log (a n)) (fun n => log_ne_top (ha n))
  unfold entryR entryK
  rw [Finset.sum_congr rfl (fun n _ => congrArg (Ideal.exp (x n - cmax x) * ·) (h2 n)), h1]

end Cert.LogShift

end
-- ==== Proof.Spec.lean ====
/-
  The result both programs compute, as one formula of the input array x[b, n, c] (8 batch rows, 4096 positions,
  512 features), on the extended reals.

  Only the last query row of the self-attention is kept. For batch row b the score of position n is the inner
  product of row 4095 with row n; the weights are the softmax of the scores (shifted by their maximum before the
  exponential); the result at feature d is the weighted sum of column d.
-/
import Idealize.ShloMosaic.PureOps.Ideal
import Idealize.ShloMosaic.Lib.ValueIdx
import proofs.«154062_j29540785062357_2_alg».proof.Proof.LibLogShift

noncomputable section

open scoped BigOperators
open Idealize.ShloMosaic Idealize.ShloMosaic.ValueIdx

namespace Cert.Attn

open Cert.LogShift

/-- The input array's index type: (batch row, position, feature). -/
abbrev XIdx : Type := (⟨3, ![8, 4096, 512]⟩ : Shape).Idx

/-- The last position, whose query row is the only one kept. -/
abbrev lastRow : Fin 4096 := ⟨4095, by decide⟩

/-- The score of position n in batch row b: the last row against row n. -/
def score (x : XIdx → EReal) (b : Fin 8) (n : Fin 4096) : EReal :=
  ∑ q : Fin 512, x (ix3 b lastRow q) * x (ix3 b n q)

/-- The attention result at (b, d): the softmax of the scores, as weights on column d. -/
def attn (x : XIdx → EReal) (b : Fin 8) (d : Fin 512) : EReal :=
  ∑ n : Fin 4096, Ideal.div (Ideal.exp (score x b n - cmax (score x b)))
      (∑ n' : Fin 4096, Ideal.exp (score x b n' - cmax (score x b))) * x (ix3 b n d)

end Cert.Attn

end
-- ==== Proof.KernelBlocks.lean ====
/-
  The two input blocks of a grid point, as entries of the input array.

  The grid has 8 × 4 points, batch row b = t / 4 and key tile k = t % 4 at point t. The key window's block at t is
  rows 1024·k … 1024·k + 1023 of batch row b of the input. The query window's block at t is row 0 of batch row b of
  the array the host sliced before the call, which is row 4095 of the input.
-/
import proofs.«154062_j29540785062357_2_alg».proof.Proof.Gen.KernelIdeal.Frame
import proofs.«154062_j29540785062357_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attn

variable (m : (ℓ : Loc nD τ sig) → Buf (Elt Ideal) ℓ)

/-- The input array on core c. -/
abbrev X (c : Dev nD) : XIdx → EReal := m ((c : Thread nD τ).loc main_arg0)

/-- Where the key window's block sits: batch row t / 4, tile t % 4, all features. -/
theorem keyIndex : ∀ t : Fin cfg0.N, win0_1.index t (0 : Fin 3) = t.val / 4 ∧ win0_1.index t (1 : Fin 3) = t.val % 4 ∧ win0_1.index t (2 : Fin 3) = 0 :=
  (by decide +kernel : ∀ t : Fin grid0.N, win0_1.index t (0 : Fin 3) = t.val / 4 ∧ win0_1.index t (1 : Fin 3) = t.val % 4 ∧ win0_1.index t (2 : Fin 3) = 0)

/-- Where the query window's block sits: batch row t / 4. -/
theorem queryIndex : ∀ t : Fin cfg0.N, win0_0.index t (0 : Fin 3) = t.val / 4 ∧ win0_0.index t (1 : Fin 3) = 0 ∧ win0_0.index t (2 : Fin 3) = 0 :=
  (by decide +kernel : ∀ t : Fin grid0.N, win0_0.index t (0 : Fin 3) = t.val / 4 ∧ win0_0.index t (1 : Fin 3) = 0 ∧ win0_0.index t (2 : Fin 3) = 0)

/-- The key tile at point t, entry (r, q): row k·1024 + r of batch row b. -/
theorem key_apply (c : Dev nD) (t : Fin cfg0.N) (b : Fin 8) (hb : b.val = t.val / 4) (k : ℕ) (hk : k = t.val % 4)
    (r : Fin 1024) (h : k * 1024 + r.val < 4096) (q : Fin 512) :
    (iblk m c 1 t (ix3 (0 : Fin 1) r q) : EReal) = X m c (ix3 b ⟨k * 1024 + r.val, h⟩ q) := by
  obtain ⟨h0, h1, h2⟩ := keyIndex t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 1 + 1 * 0 = b.val; rw [h0]; omega
  | ⟨1, _⟩ => show win0_1.index t 1 * 1024 + 1 * r.val = k * 1024 + r.val; rw [h1]; omega
  | ⟨2, _⟩ => show win0_1.index t 2 * 512 + 1 * q.val = q.val; rw [h2]; omega

/-- The array the host slices before the call is row 4095 of the input. -/
theorem sliced_eq (c : Dev nD) :
    (V m c main_v0 : S8x1x512.Idx → EReal)
      = extractStridedSlice S8x1x512 ![0, 4095, 0] (m ((c : Thread nD τ).loc main_arg0)) Facts₀.slices_S8x4096x512_S8x1x512_0_4095_0 := by
  show StableHlo.after hostOps0 (fun b => m (c, b)) (Proc.devRef .tc main_v0) = _
  after_results

/-- The query block at point t, entry q: row 4095 of batch row b. -/
theorem query_apply (c : Dev nD) (t : Fin cfg0.N) (b : Fin 8) (hb : b.val = t.val / 4) (q : Fin 512) :
    (iblk m c 0 t (ix3 (0 : Fin 1) (0 : Fin 1) q) : EReal) = X m c (ix3 b lastRow q) := by
  obtain ⟨h0, h1, h2⟩ := queryIndex t
  unfold iblk
  rw [View.read_apply]
  show (V m c main_v0 : S8x1x512.Idx → EReal) _ = _
  rw [sliced_eq]
  refine (extractStridedSlice_apply ![0, 4095, 0] _ _ _ (ix3 b lastRow q) fun a => ?_)
  match a with
  | ⟨0, _⟩ => show b.val = 0 + (win0_0.index t 0 * 1 + 1 * 0); rw [h0]; omega
  | ⟨1, _⟩ => show 4095 = 4095 + (win0_0.index t 1 * 1 + 1 * 0); rw [h1]
  | ⟨2, _⟩ => show q.val = 0 + (win0_0.index t 2 * 512 + 1 * q.val); rw [h2]; omega

end Cert.KernelIdeal.Blocks

end
-- ==== Proof.KernelPieces.lean ====
/-
  What one grid point leaves in the three carried scratch buffers and in the output block, as values.

  The body keeps a running maximum (1×1), a running normaliser (1×1) and a running weighted sum (1×512) in
  scratch. At the first tile of a batch row it first resets them to -∞, 0, 0; at every tile it replaces them by
  the updated maximum, normaliser and weighted sum computed from the query block, the key tile and the old
  contents; at the last tile it also stores the weighted sum divided by the normaliser into the output block.
  Each buffer is stored whole, so what it holds afterwards is the last store's value, and a load that follows a
  store of the whole buffer reads that store's value.
-/
import proofs.«154062_j29540785062357_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The updated running maximum from the query block, the key tile and the old maximum. -/
def newM (x0 : Vec F S1x1x512 .f32) (x1 : Vec F S1x1024x512 .f32) (mv : Vec F S1x1 .f32) : Vec F S1x1 .f32 :=
  k0_pay2 (k0_pay9 x0 x1 mv)
/-- The updated running normaliser. -/
def newL (x0 : Vec F S1x1x512 .f32) (x1 : Vec F S1x1024x512 .f32) (mv lv : Vec F S1x1 .f32) : Vec F S1x1 .f32 :=
  k0_pay12 x0 x1 mv lv
/-- The updated running weighted sum. -/
def newA (x0 : Vec F S1x1x512 .f32) (x1 : Vec F S1x1024x512 .f32) (mv : Vec F S1x1 .f32) (av : Vec F S1x512 .f32) : Vec F S1x512 .f32 :=
  k0_pay1 (k0_pay13 x0 x1 mv av)
/-- The values the reset stores. -/
abbrev m0 : Vec F S1x1 .f32 := k0_pay4 (F := F)
abbrev l0 : Vec F S1x1 .f32 := k0_pay5 (F := F)
abbrev a0 : Vec F S1x512 .f32 := k0_pay6 (F := F)

theorem first_M (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : cond0_0 i) (hc1 : ¬cond0_1 i)
    (x0 : Vec F S1x1x512 .f32) (x1 : Vec F S1x1024x512 .f32) :
    sout0_A_0 c i arg2 harg2 arg3 harg3 arg4 harg4 arg5 harg5 arg6 harg6 arg7 harg7 hc0 hc1 x0 x1 = newM x0 x1 m0 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem first_L (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : cond0_0 i) (hc1 : ¬cond0_1 i)
    (x0 : Vec F S1x1x512 .f32) (x1 : Vec F S1x1024x512 .f32) :
    sout0_A_1 c i arg2 harg2 arg3 harg3 arg4 harg4 arg5 harg5 arg6 harg6 arg7 harg7 hc0 hc1 x0 x1 = newL x0 x1 m0 l0 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem first_A (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : cond0_0 i) (hc1 : ¬cond0_1 i)
    (x0 : Vec F S1x1x512 .f32) (x1 : Vec F S1x1024x512 .f32) :
    sout0_A_2 c i arg2 harg2 arg3 harg3 arg4 harg4 arg5 harg5 arg6 harg6 arg7 harg7 hc0 hc1 x0 x1 = newA x0 x1 m0 a0 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x512) hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem mid_M (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : ¬cond0_1 i)
    (x0 : Vec F S1x1x512 .f32) (x1 : Vec F S1x1024x512 .f32) (xs0 : Vec F S1x1 .f32) (xs1 : Vec F S1x1 .f32) (xs2 : Vec F S1x512 .f32) :
    sout0_B_0 c i arg2 harg2 arg3 harg3 arg4 harg4 arg5 harg5 arg6 harg6 arg7 harg7 hc0 hc1 x0 x1 xs0 xs1 xs2 = newM x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem mid_L (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : ¬cond0_1 i)
    (x0 : Vec F S1x1x512 .f32) (x1 : Vec F S1x1024x512 .f32) (xs0 : Vec F S1x1 .f32) (xs1 : Vec F S1x1 .f32) (xs2 : Vec F S1x512 .f32) :
    sout0_B_1 c i arg2 harg2 arg3 harg3 arg4 harg4 arg5 harg5 arg6 harg6 arg7 harg7 hc0 hc1 x0 x1 xs0 xs1 xs2 = newL x0 x1 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem mid_A (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : ¬cond0_1 i)
    (x0 : Vec F S1x1x512 .f32) (x1 : Vec F S1x1024x512 .f32) (xs0 : Vec F S1x1 .f32) (xs1 : Vec F S1x1 .f32) (xs2 : Vec F S1x512 .f32) :
    sout0_B_2 c i arg2 harg2 arg3 harg3 arg4 harg4 arg5 harg5 arg6 harg6 arg7 harg7 hc0 hc1 x0 x1 xs0 xs1 xs2 = newA x0 x1 xs0 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem last_M (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : cond0_1 i)
    (x0 : Vec F S1x1x512 .f32) (x1 : Vec F S1x1024x512 .f32) (xs0 : Vec F S1x1 .f32) (xs1 : Vec F S1x1 .f32) (xs2 : Vec F S1x512 .f32) :
    sout0_C_0 c i arg2 harg2 arg3 harg3 arg4 harg4 arg5 harg5 arg6 harg6 arg7 harg7 hc0 hc1 x0 x1 xs0 xs1 xs2 = newM x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem last_L (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : cond0_1 i)
    (x0 : Vec F S1x1x512 .f32) (x1 : Vec F S1x1024x512 .f32) (xs0 : Vec F S1x1 .f32) (xs1 : Vec F S1x1 .f32) (xs2 : Vec F S1x512 .f32) :
    sout0_C_1 c i arg2 harg2 arg3 harg3 arg4 harg4 arg5 harg5 arg6 harg6 arg7 harg7 hc0 hc1 x0 x1 xs0 xs1 xs2 = newL x0 x1 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

theorem last_A (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : cond0_1 i)
    (x0 : Vec F S1x1x512 .f32) (x1 : Vec F S1x1024x512 .f32) (xs0 : Vec F S1x1 .f32) (xs1 : Vec F S1x1 .f32) (xs2 : Vec F S1x512 .f32) :
    sout0_C_2 c i arg2 harg2 arg3 harg3 arg4 harg4 arg5 harg5 arg6 harg6 arg7 harg7 hc0 hc1 x0 x1 xs0 xs1 xs2 = newA x0 x1 xs0 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

/-- At the last tile the output block holds the new weighted sum divided by the new normaliser. -/
theorem last_out (c : Dev nD) (i : grid0.Coords) (arg2 : Memref sig .tc .vmem S1x1x512 .f32) (harg2 : arg2.IsWhole) (arg3 : Memref sig .tc .vmem S1x1024x512 .f32) (harg3 : arg3.IsWhole) (arg4 : Memref sig .tc .vmem S1x1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (hc0 : ¬cond0_0 i) (hc1 : cond0_1 i)
    (x0 : Vec F S1x1x512 .f32) (x1 : Vec F S1x1024x512 .f32) (xs0 : Vec F S1x1 .f32) (xs1 : Vec F S1x1 .f32) (xs2 : Vec F S1x512 .f32) :
    out0_C_2 c i arg2 harg2 arg3 harg3 arg4 harg4 arg5 harg5 arg6 harg6 arg7 harg7 hc0 hc1 x0 x1 xs0 xs1 xs2 = k0_pay3 (newA x0 x1 xs0 xs2) (newL x0 x1 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  simp only [View.readCov_unit_zero (S := S1x1) _ hz2, View.readCov_unit_zero (S := S1x512) _ hz2, View.readAt_eq_ld, harg2.read_unread, harg3.read_unread, harg5.read_unread, harg6.read_unread, harg7.read_unread,
    View.ld_unit_zero (S := S1x1x512) hz3, View.ld_unit_zero (S := S1x1024x512) hz3, View.ld_unit_zero (S := S1x1) hz2, View.ld_unit_zero (S := S1x512) hz2]
  rfl

end Cert.KernelIdeal.Pieces

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibOnlineSoftmax.lean ====
/-
  The online softmax law, on the extended reals.

  A softmax-weighted sum  Σ_n (e_n / Σ_n' e_n') · v_n  with  e_n = exp (s_n - M),  M = max_n s_n,  can be
  accumulated tile by tile without knowing M in advance.  The keys are cut into tiles of B consecutive
  positions.  A running maximum m, a running normaliser l and a running weighted sum a are kept; at tile k

      m' = max m (max of the tile's scores)
      l' = exp (m - m') · l + Σ_r exp (s_{kB+r} - m')
      a' = exp (m - m') · a + Σ_r exp (s_{kB+r} - m') · v_{kB+r}

  starting from m = -∞, l = 0, a = 0, and at the end the result is a / l.  When every score and value is a real
  number this is the one-pass softmax-weighted sum: after each tile m is the maximum M' of the scores seen so
  far, l = Σ exp (s_n - M') and a = Σ exp (s_n - M') · v_n over the positions seen so far, because
  exp (M_old - M') · exp (s_n - M_old) = exp (s_n - M'); on the first tile the factor exp (-∞ - M') is 0 and
  multiplies 0.  Dividing a finite real sum by the positive real normaliser distributes over the sum.
-/
import Idealize.ShloMosaic.PureOps.Ideal
import proofs.«154062_j29540785062357_2_alg».proof.Proof.LibLogShift
import proofs.«154062_j29540785062357_2_alg».proof.Proof.LibBlockSum

noncomputable section

open scoped BigOperators

namespace Cert.OnlineSoftmax

open Idealize.ShloMosaic Cert.LogShift

/-- A family over the first N positions, continued by zero: lets a tile address position k·B + r by a natural number. -/
def ext {N : ℕ} (f : Fin N → EReal) : ℕ → EReal := fun n => if h : n < N then f ⟨n, h⟩ else 0

theorem ext_apply {N : ℕ} (f : Fin N → EReal) (n : ℕ) (h : n < N) : ext f n = f ⟨n, h⟩ := dif_pos h

variable (B : ℕ)

/-- The running maximum after tile k, from the running maximum m before it. -/
def stepM (m : EReal) (s : ℕ → EReal) (k : ℕ) : EReal := max m (cmax fun r : Fin B => s (k * B + r.val))

/-- The running normaliser after tile k. -/
def stepL (m l : EReal) (s : ℕ → EReal) (k : ℕ) : EReal :=
  Ideal.exp (m - stepM B m s k) * l + ∑ r : Fin B, Ideal.exp (s (k * B + r.val) - stepM B m s k)

/-- The running weighted sum after tile k. -/
def stepA (m a : EReal) (s v : ℕ → EReal) (k : ℕ) : EReal :=
  Ideal.exp (m - stepM B m s k) * a + ∑ r : Fin B, Ideal.exp (s (k * B + r.val) - stepM B m s k) * v (k * B + r.val)

/-- The three running quantities after tiles 0, …, k, started from -∞, 0, 0. -/
def runM (s : ℕ → EReal) : ℕ → EReal
  | 0 => stepM B ⊥ s 0
  | k + 1 => stepM B (runM s k) s (k + 1)

def runL (s : ℕ → EReal) : ℕ → EReal
  | 0 => stepL B ⊥ 0 s 0
  | k + 1 => stepL B (runM B s k) (runL s k) s (k + 1)

def runA (s v : ℕ → EReal) : ℕ → EReal
  | 0 => stepA B ⊥ 0 s v 0
  | k + 1 => stepA B (runM B s k) (runA s v k) s v (k + 1)

/-! ## Real families

  With real scores and values every quantity of the recursion is a real number, so the law is proved over real
  families indexed by the natural numbers and transferred through `ext` at the end. -/

/-- A real family over the first N positions, continued by zero. -/
def rext {N : ℕ} (f : Fin N → ℝ) : ℕ → ℝ := fun n => if h : n < N then f ⟨n, h⟩ else 0

theorem rext_apply {N : ℕ} (f : Fin N → ℝ) (n : Fin N) : rext f n.val = f n := dif_pos n.2

/-- The continuation by zero of a family of real numbers is a family of real numbers. -/
theorem ext_coe {N : ℕ} (f : Fin N → ℝ) :
    ext (fun n => (f n : EReal)) = fun n => ((rext f n : ℝ) : EReal) := by
  funext n
  unfold ext rext
  split <;> rfl

theorem exp_coe_sub (a b : ℝ) : Ideal.exp ((a : EReal) - (b : EReal)) = ((Real.exp (a - b) : ℝ) : EReal) := by
  rw [← EReal.coe_sub, Ideal.exp_coe]

/-- A nonempty tile of real scores has a real maximum, which bounds the tile and is attained in it. -/
theorem tile_max (hB : 0 < B) (x : ℕ → ℝ) (k : ℕ) :
    ∃ μt : ℝ, cmax (fun r : Fin B => ((x (k * B + r.val) : ℝ) : EReal)) = (μt : EReal)
      ∧ (∀ r : Fin B, x (k * B + r.val) ≤ μt) ∧ ∃ r : Fin B, x (k * B + r.val) = μt := by
  have hne_bot : cmax (fun r : Fin B => ((x (k * B + r.val) : ℝ) : EReal)) ≠ ⊥ := by
    intro e
    exact EReal.coe_ne_bot _ (eq_bot_of_cmax_eq_bot e ⟨0, hB⟩)
  obtain ⟨r0, hr0⟩ := exists_eq_cmax hne_bot
  refine ⟨x (k * B + r0.val), hr0.symm, fun r => ?_, r0, rfl⟩
  have h := le_cmax (fun r : Fin B => ((x (k * B + r.val) : ℝ) : EReal)) r
  rw [← hr0] at h
  exact EReal.coe_le_coe_iff.mp h

/-- The running maximum from -∞ is the tile's maximum. -/
theorem stepM_bot (x : ℕ → ℝ) (k : ℕ) (μt : ℝ)
    (ht : cmax (fun r : Fin B => ((x (k * B + r.val) : ℝ) : EReal)) = (μt : EReal)) :
    stepM B ⊥ (fun n => ((x n : ℝ) : EReal)) k = (μt : EReal) := by
  unfold stepM
  rw [ht]
  exact max_eq_right bot_le

/-- The running maximum from a real number is the larger of it and the tile's maximum. -/
theorem stepM_coe (x : ℕ → ℝ) (k : ℕ) (μ μt : ℝ)
    (ht : cmax (fun r : Fin B => ((x (k * B + r.val) : ℝ) : EReal)) = (μt : EReal)) :
    stepM B (μ : EReal) (fun n => ((x n : ℝ) : EReal)) k = ((max μ μt : ℝ) : EReal) := by
  unfold stepM
  rw [ht]
  exact (EReal.coe_strictMono.monotone.map_max).symm

/-- From -∞ and 0 the normaliser is the tile's sum: the factor exp (-∞ - m') multiplies 0. -/
theorem stepL_bot (x : ℕ → ℝ) (k : ℕ) (μ' : ℝ)
    (hm : stepM B ⊥ (fun n => ((x n : ℝ) : EReal)) k = (μ' : EReal)) :
    stepL B ⊥ 0 (fun n => ((x n : ℝ) : EReal)) k
      = ((∑ r : Fin B, Real.exp (x (k * B + r.val) - μ') : ℝ) : EReal) := by
  unfold stepL
  rw [hm, mul_zero, zero_add]
  simp only [exp_coe_sub]
  rw [coe_sum]

theorem stepA_bot (x y : ℕ → ℝ) (k : ℕ) (μ' : ℝ)
    (hm : stepM B ⊥ (fun n => ((x n : ℝ) : EReal)) k = (μ' : EReal)) :
    stepA B ⊥ 0 (fun n => ((x n : ℝ) : EReal)) (fun n => ((y n : ℝ) : EReal)) k
      = ((∑ r : Fin B, Real.exp (x (k * B + r.val) - μ') * y (k * B + r.val) : ℝ) : EReal) := by
  unfold stepA
  rw [hm, mul_zero, zero_add]
  simp only [exp_coe_sub, ← EReal.coe_mul]
  rw [coe_sum]

/-- From real numbers the normaliser is a real number. -/
theorem stepL_coe (x : ℕ → ℝ) (k : ℕ) (μ μ' l : ℝ)
    (hm : stepM B (μ : EReal) (fun n => ((x n : ℝ) : EReal)) k = (μ' : EReal)) :
    stepL B (μ : EReal) (l : EReal) (fun n => ((x n : ℝ) : EReal)) k
      = ((Real.exp (μ - μ') * l + ∑ r : Fin B, Real.exp (x (k * B + r.val) - μ') : ℝ) : EReal) := by
  unfold stepL
  rw [hm]
  simp only [exp_coe_sub]
  rw [coe_sum, ← EReal.coe_mul, ← EReal.coe_add]

theorem stepA_coe (x y : ℕ → ℝ) (k : ℕ) (μ μ' a : ℝ)
    (hm : stepM B (μ : EReal) (fun n => ((x n : ℝ) : EReal)) k = (μ' : EReal)) :
    stepA B (μ : EReal) (a : EReal) (fun n => ((x n : ℝ) : EReal)) (fun n => ((y n : ℝ) : EReal)) k
      = ((Real.exp (μ - μ') * a + ∑ r : Fin B, Real.exp (x (k * B + r.val) - μ') * y (k * B + r.val) : ℝ) : EReal) := by
  unfold stepA
  rw [hm]
  simp only [exp_coe_sub, ← EReal.coe_mul]
  rw [coe_sum, ← EReal.coe_add]

/-- THE INVARIANT: after tile k the running maximum is a real number μ that bounds the (k + 1) · B scores seen so
    far and is one of them, and the normaliser and the weighted sum are the sums of exp (x n - μ) and of
    exp (x n - μ) · y n over those positions. -/
theorem run_inv (hB : 0 < B) (x y : ℕ → ℝ) (k : ℕ) :
    ∃ μ : ℝ, runM B (fun n => ((x n : ℝ) : EReal)) k = (μ : EReal)
      ∧ (∀ n, n < (k + 1) * B → x n ≤ μ)
      ∧ (∃ n, n < (k + 1) * B ∧ x n = μ)
      ∧ runL B (fun n => ((x n : ℝ) : EReal)) k
          = ((∑ n ∈ Finset.range ((k + 1) * B), Real.exp (x n - μ) : ℝ) : EReal)
      ∧ runA B (fun n => ((x n : ℝ) : EReal)) (fun n => ((y n : ℝ) : EReal)) k
          = ((∑ n ∈ Finset.range ((k + 1) * B), Real.exp (x n - μ) * y n : ℝ) : EReal) := by
  induction k with
  | zero =>
    obtain ⟨μt, ht, hub, r0, hr0⟩ := tile_max B hB x 0
    have hm := stepM_bot B x 0 μt ht
    refine ⟨μt, hm, ?_, ?_, ?_, ?_⟩
    · intro n hn
      have hn' : n < B := by simpa using hn
      simpa using hub ⟨n, hn'⟩
    · exact ⟨r0.val, by simpa using r0.2, by simpa using hr0⟩
    · show stepL B ⊥ 0 (fun n => ((x n : ℝ) : EReal)) 0 = _
      rw [stepL_bot B x 0 μt hm, Fin.sum_univ_eq_sum_range (fun n => Real.exp (x (0 * B + n) - μt)) B]
      simp
    · show stepA B ⊥ 0 (fun n => ((x n : ℝ) : EReal)) (fun n => ((y n : ℝ) : EReal)) 0 = _
      rw [stepA_bot B x y 0 μt hm,
        Fin.sum_univ_eq_sum_range (fun n => Real.exp (x (0 * B + n) - μt) * y (0 * B + n)) B]
      simp
  | succ k ih =>
    obtain ⟨μ, hM, hub, ⟨n0, hn0, hatt⟩, hL, hA⟩ := ih
    obtain ⟨μt, ht, hubt, r0, hr0⟩ := tile_max B hB x (k + 1)
    have hm := stepM_coe B x (k + 1) μ μt ht
    have hsucc : (k + 1 + 1) * B = (k + 1) * B + B := Nat.succ_mul (k + 1) B
    refine ⟨max μ μt, ?_, ?_, ?_, ?_, ?_⟩
    · show stepM B (runM B (fun n => ((x n : ℝ) : EReal)) k) (fun n => ((x n : ℝ) : EReal)) (k + 1) = _
      rw [hM]; exact hm
    · intro n hn
      by_cases h : n < (k + 1) * B
      · exact le_trans (hub n h) (le_max_left _ _)
      · obtain ⟨r, rfl⟩ := Nat.exists_eq_add_of_le (not_lt.mp h)
        have hr : r < B := by omega
        exact le_trans (hubt ⟨r, hr⟩) (le_max_right _ _)
    · rcases le_total μt μ with h | h
      · exact ⟨n0, by omega, by rw [max_eq_left h]; exact hatt⟩
      · exact ⟨(k + 1) * B + r0.val, by have := r0.2; omega, by rw [max_eq_right h]; exact hr0⟩
    · show stepL B (runM B (fun n => ((x n : ℝ) : EReal)) k) (runL B (fun n => ((x n : ℝ) : EReal)) k)
          (fun n => ((x n : ℝ) : EReal)) (k + 1) = _
      rw [hM, hL, stepL_coe B x (k + 1) μ (max μ μt) _ hm, hsucc, Finset.sum_range_add, Finset.mul_sum,
        Fin.sum_univ_eq_sum_range (fun n => Real.exp (x ((k + 1) * B + n) - max μ μt)) B]
      congr 2
      refine Finset.sum_congr rfl fun n _ => ?_
      rw [← Real.exp_add]
      congr 1
      ring
    · show stepA B (runM B (fun n => ((x n : ℝ) : EReal)) k)
          (runA B (fun n => ((x n : ℝ) : EReal)) (fun n => ((y n : ℝ) : EReal)) k)
          (fun n => ((x n : ℝ) : EReal)) (fun n => ((y n : ℝ) : EReal)) (k + 1) = _
      rw [hM, hA, stepA_coe B x y (k + 1) μ (max μ μt) _ hm, hsucc, Finset.sum_range_add, Finset.mul_sum,
        Fin.sum_univ_eq_sum_range
          (fun n => Real.exp (x ((k + 1) * B + n) - max μ μt) * y ((k + 1) * B + n)) B]
      congr 2
      refine Finset.sum_congr rfl fun n _ => ?_
      rw [← mul_assoc, ← Real.exp_add]
      congr 2
      ring

/-- THE LAW: for real scores σ and values ν over N = (T + 1) · B positions (B > 0), the tile-by-tile result
    a / l after the last tile is the one-pass softmax-weighted sum. -/
theorem online_softmax (T : ℕ) (hB : 0 < B) (N : ℕ) (hN : N = (T + 1) * B) (σ ν : Fin N → ℝ) :
    Ideal.div (runA B (ext fun n => (σ n : EReal)) (ext fun n => (ν n : EReal)) T) (runL B (ext fun n => (σ n : EReal)) T)
      = ∑ n : Fin N, Ideal.div (Ideal.exp ((σ n : EReal) - cmax fun n' : Fin N => (σ n' : EReal)))
            (∑ n' : Fin N, Ideal.exp ((σ n' : EReal) - cmax fun n'' : Fin N => (σ n'' : EReal))) * (ν n : EReal) := by
  subst hN
  rw [ext_coe, ext_coe]
  obtain ⟨μ, -, hub, ⟨n0, hn0, hatt⟩, hL, hA⟩ := run_inv B hB (rext σ) (rext ν) T
  -- the maximum of all the scores is μ
  have hcm : cmax (fun n : Fin ((T + 1) * B) => (σ n : EReal)) = (μ : EReal) := by
    apply le_antisymm
    · refine cmax_le fun n => EReal.coe_le_coe_iff.mpr ?_
      rw [← rext_apply σ n]
      exact hub n.val n.2
    · refine le_trans (le_of_eq ?_) (le_cmax (fun n : Fin ((T + 1) * B) => (σ n : EReal)) ⟨n0, hn0⟩)
      show (μ : EReal) = ((σ ⟨n0, hn0⟩ : ℝ) : EReal)
      rw [← hatt, ← rext_apply σ ⟨n0, hn0⟩]
  -- the sums over the first N natural numbers are the sums over the N positions
  have hLs : (∑ n ∈ Finset.range ((T + 1) * B), Real.exp (rext σ n - μ))
      = ∑ n : Fin ((T + 1) * B), Real.exp (σ n - μ) := by
    rw [← Fin.sum_univ_eq_sum_range (fun n => Real.exp (rext σ n - μ))]
    exact Finset.sum_congr rfl fun n _ => by rw [rext_apply]
  have hAs : (∑ n ∈ Finset.range ((T + 1) * B), Real.exp (rext σ n - μ) * rext ν n)
      = ∑ n : Fin ((T + 1) * B), Real.exp (σ n - μ) * ν n := by
    rw [← Fin.sum_univ_eq_sum_range (fun n => Real.exp (rext σ n - μ) * rext ν n)]
    exact Finset.sum_congr rfl fun n _ => by rw [rext_apply, rext_apply]
  -- the normaliser is a positive real number
  have hpos : 0 < ∑ n : Fin ((T + 1) * B), Real.exp (σ n - μ) :=
    Finset.sum_pos (fun _ _ => Real.exp_pos _) ⟨⟨n0, hn0⟩, Finset.mem_univ _⟩
  rw [hcm, hA, hL, hLs, hAs]
  simp only [exp_coe_sub]
  rw [coe_sum]
  simp only [Ideal.div_coe (ne_of_gt hpos), ← EReal.coe_mul]
  rw [coe_sum, Finset.sum_mul]
  congr 1
  exact Finset.sum_congr rfl fun n _ => by ring

end Cert.OnlineSoftmax

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KernelStep.lean ====
/-
  One grid point's arithmetic, read entry by entry on the extended reals.

  With q the query row (the block of the sliced array), K the key tile (1024 rows of 512), and m, l, a the old running
  maximum, normaliser and weighted sum, the body computes the tile's scores  s_r = Σ_c q_c · K_{r,c},  the new maximum
  m' = max m (max_r s_r),  the rescaling factor  exp (m - m'),  the weights  p_r = exp (s_r - m'),  and then
  l' = exp (m - m') · l + Σ_r p_r  and  a'_d = exp (m - m') · a_d + Σ_r p_r · K_{r,d}. A change of float format is the
  identity here, a matrix product into a zero accumulator is the plain sum of products, and a reduction from its neutral
  element is the plain maximum or sum. So these are exactly the three step functions of the online softmax law, with the
  tile's scores and the tile's column d as the families the law takes.
-/
import proofs.«154062_j29540785062357_2_alg».proof.Proof.KernelPieces
import proofs.«154062_j29540785062357_2_alg».proof.Proof.LibOnlineSoftmax
import proofs.«154062_j29540785062357_2_alg».proof.Proof.LibDotNT
import proofs.«154062_j29540785062357_2_alg».proof.Proof.LibPlainDot
import proofs.«154062_j29540785062357_2_alg».proof.Proof.LibColumn
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Step

open Cert.KernelIdeal Cert.KernelIdeal.Gen Cert.KernelIdeal.Pieces Cert.OnlineSoftmax Cert.LogShift

variable (x0 : Vec Ideal S1x1x512 .f32) (x1 : Vec Ideal S1x1024x512 .f32) (mv lv : Vec Ideal S1x1 .f32) (av : Vec Ideal S1x512 .f32)

/-- The tile's score of key row r: the query row against that key row. -/
def score (r : Fin 1024) : EReal := ∑ q : Fin 512, (x0 (ix3 (0 : Fin 1) (0 : Fin 1) q) : EReal) * (x1 (ix3 (0 : Fin 1) r q) : EReal)

/-- The first product of the body, at key row r. -/
theorem scores_apply (r : Fin 1024) : (k0_pay8 (F := Ideal) x0 x1 (ix2 (0 : Fin 1) r) : EReal) = score x0 x1 r := by
  unfold k0_pay8 k0_pay7
  refine (Cert.DotNT.matmul_zero_apply (d := dot_S1x512_S1024x512_S1x1024_1_1_0_0_n_n) ⟨rfl, rfl, rfl, rfl, rfl, rfl⟩ none _ _ (0 : Fin 1) r).trans ?_
  refine Finset.sum_congr rfl fun q _ => ?_
  exact congrArg₂ (· * ·) (shapeCast_1ab_ab_apply x0 _ (0 : Fin 1) q) (shapeCast_1ab_ab_apply x1 _ r q)

/-- The key tile with its leading unit axis dropped, at (r, d). -/
theorem keys_apply (r : Fin 1024) (d : Fin 512) : (k0_pay7 (F := Ideal) x1 (ix2 r d) : EReal) = x1 (ix3 (0 : Fin 1) r d) :=
  shapeCast_1ab_ab_apply x1 _ r d

/-- The one reduced index of a 1×1024 row, with lane r put back, is (0, r). -/
theorem lift_lane (r : Fin 1024) : reduces_S1x1024_S1.lift (ix1 (0 : Fin 1)) r = ix2 (0 : Fin 1) r := by
  funext c; apply Fin.ext
  fin_cases c <;> rfl

/-- The word 0xFF800000 is -∞. -/
theorem ofBits_neg_inf : (FloatOps.ofBits (F := Ideal) .f32 0xFF800000#32 : EReal) = ⊥ := neg_inf

/-- The new running maximum. -/
theorem max_apply : (k0_pay9 (F := Ideal) x0 x1 mv (ix2 (0 : Fin 1) (0 : Fin 1)) : EReal) = max (mv (ix2 (0 : Fin 1) (0 : Fin 1)) : EReal) (cmax (score x0 x1)) := by
  unfold k0_pay9
  refine (maximumf_apply _ _ _).trans ?_
  refine congrArg (max _) ?_
  refine (shapeCast_a_1a_apply _ _ (0 : Fin 1) (0 : Fin 1)).trans ?_
  refine (Ideal.multiReduction_maximumf_single _ _ _ _ _ _).trans ?_
  rw [ofBits_neg_inf]
  refine congrArg (fun u => (Finset.univ : Finset (Fin 1024)).fold max ⊥ u) (funext fun r => ?_)
  exact (congrArg (k0_pay8 (F := Ideal) x0 x1) (lift_lane r)).trans (scores_apply x0 x1 r)

/-- The rescaling factor exp (m - m'). -/
theorem alpha_apply : (k0_pay10 (F := Ideal) x0 x1 mv (ix2 (0 : Fin 1) (0 : Fin 1)) : EReal)
    = Ideal.exp ((mv (ix2 (0 : Fin 1) (0 : Fin 1)) : EReal) - max (mv (ix2 (0 : Fin 1) (0 : Fin 1)) : EReal) (cmax (score x0 x1))) := by
  unfold k0_pay10
  show Ideal.exp ((mv (ix2 (0 : Fin 1) (0 : Fin 1)) : EReal) - (k0_pay9 (F := Ideal) x0 x1 mv (ix2 (0 : Fin 1) (0 : Fin 1)) : EReal)) = _
  rw [max_apply]

/-- The weights exp (s_r - m'). -/
theorem weights_apply (r : Fin 1024) : (k0_pay11 (F := Ideal) x0 x1 mv (ix2 (0 : Fin 1) r) : EReal)
    = Ideal.exp (score x0 x1 r - max (mv (ix2 (0 : Fin 1) (0 : Fin 1)) : EReal) (cmax (score x0 x1))) := by
  unfold k0_pay11
  show Ideal.exp ((k0_pay8 (F := Ideal) x0 x1 (ix2 (0 : Fin 1) r) : EReal) - (broadcastTo S1x1024 (k0_pay9 (F := Ideal) x0 x1 mv) broadcasts_S1x1_S1x1024 (ix2 (0 : Fin 1) r) : EReal)) = _
  rw [scores_apply, Cert.Column.broadcastTo_a1_ab_apply, max_apply]

variable (s : ℕ → EReal) (k : ℕ)

/-- NEW MAXIMUM = the law's stepM, when the tile's scores are the family's entries k·1024 + r. -/
theorem newM_apply (hs : ∀ r : Fin 1024, score x0 x1 r = s (k * 1024 + r.val)) :
    (newM (F := Ideal) x0 x1 mv (ix2 (0 : Fin 1) (0 : Fin 1)) : EReal) = stepM 1024 (mv (ix2 (0 : Fin 1) (0 : Fin 1))) s k := by
  unfold newM k0_pay2
  rw [shapeCast_self, max_apply]
  unfold stepM
  exact congrArg (fun u => max (mv (ix2 (0 : Fin 1) (0 : Fin 1)) : EReal) (cmax u)) (funext hs)

/-- The maximum the body uses is the law's stepM. -/
theorem max_eq_stepM (hs : ∀ r : Fin 1024, score x0 x1 r = s (k * 1024 + r.val)) :
    max (mv (ix2 (0 : Fin 1) (0 : Fin 1)) : EReal) (cmax (score x0 x1)) = stepM 1024 (mv (ix2 (0 : Fin 1) (0 : Fin 1))) s k := by
  unfold stepM
  exact congrArg (fun u => max (mv (ix2 (0 : Fin 1) (0 : Fin 1)) : EReal) (cmax u)) (funext hs)

/-- NEW NORMALISER = the law's stepL. -/
theorem newL_apply (hs : ∀ r : Fin 1024, score x0 x1 r = s (k * 1024 + r.val)) :
    (newL (F := Ideal) x0 x1 mv lv (ix2 (0 : Fin 1) (0 : Fin 1)) : EReal)
      = stepL 1024 (mv (ix2 (0 : Fin 1) (0 : Fin 1))) (lv (ix2 (0 : Fin 1) (0 : Fin 1))) s k := by
  unfold newL k0_pay12
  rw [shapeCast_self]
  refine (addf_apply _ _ _).trans ?_
  unfold stepL
  refine congrArg₂ (· + ·) ?_ ?_
  · refine (mulf_apply _ _ _).trans ?_
    rw [alpha_apply, max_eq_stepM x0 x1 mv s k hs]
  · refine (shapeCast_a_1a_apply _ _ (0 : Fin 1) (0 : Fin 1)).trans ?_
    refine (Ideal.multiReduction_add_single _ _ _ _ _ _).trans ?_
    refine Finset.sum_congr rfl fun r _ => ?_
    refine (congrArg (k0_pay11 (F := Ideal) x0 x1 mv) (lift_lane r)).trans ?_
    refine (weights_apply x0 x1 mv r).trans ?_
    rw [max_eq_stepM x0 x1 mv s k hs, hs r]

variable (v : ℕ → EReal)

/-- NEW WEIGHTED SUM at column d = the law's stepA, the values being the key tile's column d. -/
theorem newA_apply (d : Fin 512) (hs : ∀ r : Fin 1024, score x0 x1 r = s (k * 1024 + r.val))
    (hv : ∀ r : Fin 1024, (x1 (ix3 (0 : Fin 1) r d) : EReal) = v (k * 1024 + r.val)) :
    (newA (F := Ideal) x0 x1 mv av (ix2 (0 : Fin 1) d) : EReal)
      = stepA 1024 (mv (ix2 (0 : Fin 1) (0 : Fin 1))) (av (ix2 (0 : Fin 1) d)) s v k := by
  unfold newA k0_pay1
  rw [shapeCast_self]
  unfold k0_pay13
  refine (addf_apply _ _ _).trans ?_
  unfold stepA
  refine congrArg₂ (· + ·) ?_ ?_
  · refine (mulf_apply _ _ _).trans ?_
    rw [Cert.Column.broadcastTo_a1_ab_apply, alpha_apply, max_eq_stepM x0 x1 mv s k hs]
  · refine (Cert.PlainDot.matmul_zero_apply (d := dot_S1x1024_S1024x512_S1x512_1_0_0_1_n_n) ⟨rfl, rfl, rfl, rfl, rfl, rfl⟩ none _ _ (0 : Fin 1) d).trans ?_
    refine Finset.sum_congr rfl fun r _ => ?_
    refine congrArg₂ (· * ·) ?_ ?_
    · refine (weights_apply x0 x1 mv r).trans ?_
      rw [max_eq_stepM x0 x1 mv s k hs, hs r]
    · exact (keys_apply x1 r d).trans (hv r)

/-- THE OUTPUT BLOCK at column d: the weighted sum over the normaliser. -/
theorem out_apply (av' : Vec Ideal S1x512 .f32) (lv' : Vec Ideal S1x1 .f32) (d : Fin 512) :
    (k0_pay3 (F := Ideal) av' lv' (ix3 (0 : Fin 1) (0 : Fin 1) d) : EReal)
      = Ideal.div (av' (ix2 (0 : Fin 1) d)) (lv' (ix2 (0 : Fin 1) (0 : Fin 1))) := by
  unfold k0_pay3
  refine (shapeCast_ab_1ab_apply _ _ (0 : Fin 1) (0 : Fin 1) d).trans ?_
  refine (divf_apply _ _ _).trans ?_
  rw [Cert.Column.broadcastTo_a1_ab_apply]

/-- The reset stores -∞ in the maximum, -/
theorem m0_apply : (m0 (F := Ideal) (ix2 (0 : Fin 1) (0 : Fin 1)) : EReal) = ⊥ := by
  unfold m0 k0_pay4
  rw [shapeCast_self]
  exact neg_inf
/-- 0 in the normaliser, -/
theorem l0_apply : (l0 (F := Ideal) (ix2 (0 : Fin 1) (0 : Fin 1)) : EReal) = 0 := by
  unfold l0 k0_pay5
  rw [shapeCast_self]
  exact Ideal.ofBits_zero_f32
/-- and 0 in every column of the weighted sum. -/
theorem a0_apply (d : Fin 512) : (a0 (F := Ideal) (ix2 (0 : Fin 1) d) : EReal) = 0 := by
  unfold a0 k0_pay6
  rw [shapeCast_self]
  exact Ideal.ofBits_zero_f32

end Cert.KernelIdeal.Step

end
-- ==== Proof.KernelChain.lean ====
/-
  What the carried scratch holds after every grid point.

  Point t = 4·b + k handles key tile k of batch row b. After it the running maximum, normaliser and weighted sum
  are the online softmax law's runM, runL, runA after tiles 0 … k of that batch row's scores (the last row
  against every row) and, for the weighted sum's column d, of the input's column d: at k = 0 the body first
  resets the three to -∞, 0, 0, and at k + 1 it updates what tile k left. This is a plain unfolding; no entry
  needs to be finite. At k = 3 the output block is the weighted sum divided by the normaliser.
-/
import proofs.«154062_j29540785062357_2_alg».proof.Proof.KernelBlocks
import proofs.«154062_j29540785062357_2_alg».proof.Proof.KernelStep

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Pieces Cert.KernelIdeal.Step Cert.KernelIdeal.Blocks
open Cert.OnlineSoftmax Cert.Attn

variable (m : (ℓ : Loc nD τ sig) → Buf (Elt Ideal) ℓ)

/-- Batch row b's scores, as a family over the natural numbers. -/
def S (c : Dev nD) (b : Fin 8) : ℕ → EReal := ext (Attn.score (X m c) b)
/-- Batch row b's column d. -/
def Vd (c : Dev nD) (b : Fin 8) (d : Fin 512) : ℕ → EReal := ext fun n => X m c (ix3 b n d)

/-- The tile's scores at point t are entries k·1024 + r of the batch row's scores. -/
theorem tile_scores (c : Dev nD) (t : Fin cfg0.N) (b : Fin 8) (hb : b.val = t.val / 4) (k : ℕ) (hk : k = t.val % 4) (r : Fin 1024) :
    Step.score (iblk m c 0 t) (iblk m c 1 t) r = S m c b (k * 1024 + r.val) := by
  have h : k * 1024 + r.val < 4096 := by have := r.isLt; omega
  unfold S Step.score
  rw [ext_apply _ _ h]
  unfold Attn.score
  refine Finset.sum_congr rfl fun q _ => ?_
  rw [query_apply m c t b hb q, key_apply m c t b hb k hk r h q]

/-- The tile's column d at point t is entries k·1024 + r of the batch row's column d. -/
theorem tile_values (c : Dev nD) (t : Fin cfg0.N) (b : Fin 8) (hb : b.val = t.val / 4) (k : ℕ) (hk : k = t.val % 4) (d : Fin 512) (r : Fin 1024) :
    (iblk m c 1 t (ix3 (0 : Fin 1) r d) : EReal) = Vd m c b d (k * 1024 + r.val) := by
  have h : k * 1024 + r.val < 4096 := by have := r.isLt; omega
  unfold Vd
  rw [ext_apply _ _ h]
  exact key_apply m c t b hb k hk r h d

/-- A first tile's point leaves the update of the reset values. -/
theorem at_first (c : Dev nD) (t : Fin cfg0.N) (h0 : t.val % 4 = 0) (h1 : ¬t.val % 4 = 3) :
    (outsAt0 m c t.val t.isLt).2.1 = newM (iblk m c 0 t) (iblk m c 1 t) m0
    ∧ (outsAt0 m c t.val t.isLt).2.2.1 = newL (iblk m c 0 t) (iblk m c 1 t) m0 l0
    ∧ (outsAt0 m c t.val t.isLt).2.2.2 = newA (iblk m c 0 t) (iblk m c 1 t) m0 a0 := by
  rw [outsAt0_A m c t h0 h1]
  dsimp only
  exact ⟨first_M c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), first_L c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), first_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- A later tile's point leaves the update of what the point before left. -/
theorem at_next (c : Dev nD) (t : Fin cfg0.N) (h0 : ¬t.val % 4 = 0) (n' : ℕ) (hn' : n' + 1 = t.val) (hlt : n' < cfg0.N) :
    (outsAt0 m c t.val t.isLt).2.1 = newM (iblk m c 0 t) (iblk m c 1 t) (outsAt0 m c n' hlt).2.1
    ∧ (outsAt0 m c t.val t.isLt).2.2.1 = newL (iblk m c 0 t) (iblk m c 1 t) (outsAt0 m c n' hlt).2.1 (outsAt0 m c n' hlt).2.2.1
    ∧ (outsAt0 m c t.val t.isLt).2.2.2 = newA (iblk m c 0 t) (iblk m c 1 t) (outsAt0 m c n' hlt).2.1 (outsAt0 m c n' hlt).2.2.2 := by
  obtain rfl : n' = t.val - 1 := by omega
  by_cases h1 : t.val % 4 = 3
  · rw [outsAt0_C m c t h0 h1]
    dsimp only
    exact ⟨last_M c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, last_L c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, last_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨mid_M c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, mid_L c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, mid_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A last tile's point also leaves, in the output block, the new weighted sum over the new normaliser. -/
theorem at_last_out (c : Dev nD) (t : Fin cfg0.N) (h0 : ¬t.val % 4 = 0) (h1 : t.val % 4 = 3) :
    (outsAt0 m c t.val t.isLt).1 = k0_pay3 (outsAt0 m c t.val t.isLt).2.2.2 (outsAt0 m c t.val t.isLt).2.2.1 := by
  rw [outsAt0_C m c t h0 h1]
  dsimp only
  rw [last_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, last_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, last_L c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- THE SCRATCH AFTER POINT 4·b + k: the law's running maximum, normaliser and weighted sums after tiles 0 … k. -/
theorem scratch_eq (c : Dev nD) (b : Fin 8) : ∀ (k : ℕ) (hk : k < 4) (hn : 4 * b.val + k < cfg0.N),
    ((outsAt0 m c (4 * b.val + k) hn).2.1 (ix2 (0 : Fin 1) (0 : Fin 1)) : EReal) = runM 1024 (S m c b) k
    ∧ ((outsAt0 m c (4 * b.val + k) hn).2.2.1 (ix2 (0 : Fin 1) (0 : Fin 1)) : EReal) = runL 1024 (S m c b) k
    ∧ ∀ d : Fin 512, ((outsAt0 m c (4 * b.val + k) hn).2.2.2 (ix2 (0 : Fin 1) d) : EReal) = runA 1024 (S m c b) (Vd m c b d) k
  | 0, hk, hn => by
    have hbv := b.isLt
    have h0 : (⟨4 * b.val + 0, hn⟩ : Fin cfg0.N).val % 4 = 0 := by show (4 * b.val + 0) % 4 = 0; omega
    have h1 : ¬(⟨4 * b.val + 0, hn⟩ : Fin cfg0.N).val % 4 = 3 := by show ¬(4 * b.val + 0) % 4 = 3; omega
    have hb : b.val = (⟨4 * b.val + 0, hn⟩ : Fin cfg0.N).val / 4 := by show b.val = (4 * b.val + 0) / 4; omega
    have hk0 : (0 : ℕ) = (⟨4 * b.val + 0, hn⟩ : Fin cfg0.N).val % 4 := by show 0 = (4 * b.val + 0) % 4; omega
    obtain ⟨eM, eL, eA⟩ := at_first m c ⟨4 * b.val + 0, hn⟩ h0 h1
    have hs := tile_scores m c ⟨4 * b.val + 0, hn⟩ b hb 0 hk0
    refine ⟨?_, ?_, fun d => ?_⟩
    · rw [eM, newM_apply _ _ _ (S m c b) 0 hs, m0_apply]; rfl
    · rw [eL, newL_apply _ _ _ _ (S m c b) 0 hs, m0_apply, l0_apply]; rfl
    · rw [eA, newA_apply _ _ _ _ (S m c b) 0 (Vd m c b d) d hs (tile_values m c ⟨4 * b.val + 0, hn⟩ b hb 0 hk0 d), m0_apply, a0_apply]; rfl
  | k + 1, hk, hn => by
    have hbv := b.isLt
    have hlt : 4 * b.val + k < cfg0.N := by omega
    have h0 : ¬(⟨4 * b.val + (k + 1), hn⟩ : Fin cfg0.N).val % 4 = 0 := by show ¬(4 * b.val + (k + 1)) % 4 = 0; omega
    have hb : b.val = (⟨4 * b.val + (k + 1), hn⟩ : Fin cfg0.N).val / 4 := by show b.val = (4 * b.val + (k + 1)) / 4; omega
    have hk1 : k + 1 = (⟨4 * b.val + (k + 1), hn⟩ : Fin cfg0.N).val % 4 := by show k + 1 = (4 * b.val + (k + 1)) % 4; omega
    obtain ⟨eM, eL, eA⟩ := at_next m c ⟨4 * b.val + (k + 1), hn⟩ h0 (4 * b.val + k) rfl hlt
    obtain ⟨iM, iL, iA⟩ := scratch_eq c b k (by omega) hlt
    have hs := tile_scores m c ⟨4 * b.val + (k + 1), hn⟩ b hb (k + 1) hk1
    refine ⟨?_, ?_, fun d => ?_⟩
    · rw [eM, newM_apply _ _ _ (S m c b) (k + 1) hs, iM]; rfl
    · rw [eL, newL_apply _ _ _ _ (S m c b) (k + 1) hs, iM, iL]; rfl
    · rw [eA, newA_apply _ _ _ _ (S m c b) (k + 1) (Vd m c b d) d hs (tile_values m c ⟨4 * b.val + (k + 1), hn⟩ b hb (k + 1) hk1 d), iM, iA d]; rfl

/-- THE OUTPUT BLOCK AFTER THE LAST TILE of batch row b, at feature d. -/
theorem out_eq (c : Dev nD) (b : Fin 8) (hn : 4 * b.val + 3 < cfg0.N) (d : Fin 512) :
    ((outsAt0 m c (4 * b.val + 3) hn).1 (ix3 (0 : Fin 1) (0 : Fin 1) d) : EReal)
      = Ideal.div (runA 1024 (S m c b) (Vd m c b d) 3) (runL 1024 (S m c b) 3) := by
  have hbv := b.isLt
  have h0 : ¬(⟨4 * b.val + 3, hn⟩ : Fin cfg0.N).val % 4 = 0 := by show ¬(4 * b.val + 3) % 4 = 0; omega
  have h1 : (⟨4 * b.val + 3, hn⟩ : Fin cfg0.N).val % 4 = 3 := by show (4 * b.val + 3) % 4 = 3; omega
  obtain ⟨-, iL, iA⟩ := scratch_eq m c b 3 (by omega) hn
  have e := at_last_out m c ⟨4 * b.val + 3, hn⟩ h0 h1
  rw [e, out_apply, iL, iA d]

end Cert.KernelIdeal.Chain

end
-- ==== Proof.KernelValue.lean ====
/-
  The kernel's result array.

  The output window's block of batch row b is written back once, after the fourth key tile (points 4·b + 3), and
  holds the weighted sum divided by the normaliser. These eight blocks tile the 8×1×512 output, so after the run
  the output is, at (b, 0, d), the tile-by-tile quotient of batch row b and feature d; the host then reshapes it
  to 8×512.
-/
import proofs.«154062_j29540785062357_2_alg».proof.Proof.KernelChain
import Idealize.ShloMosaic.Lib.Pipeline.FrameSuffix
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Blocks Cert.KernelIdeal.Chain
open Cert.OnlineSoftmax Cert.Attn

variable (m : (ℓ : Loc nD τ sig) → Buf (Elt Ideal) ℓ) (ρ : Dev nD → PrngReg)

/-- The tile-by-tile quotient of batch row b at feature d, after the fourth tile. -/
def quot (c : Dev nD) (b : Fin 8) (d : Fin 512) : EReal :=
  Ideal.div (runA 1024 (S m c b) (Vd m c b d) 3) (runL 1024 (S m c b) 3)

/-- The output array after the run. -/
def G (c : Dev nD) : S8x1x512.Idx → EReal := fun i => quot m c (i 0) (i 2)

/-- The scratch contents depend on the point only through its number. -/
theorem outsAt_congr (c : Dev nD) {n n' : ℕ} (e : n = n') (h : n < cfg0.N) (h' : n' < cfg0.N) :
    outsAt0 m c n h = outsAt0 m c n' h' := by subst e; rfl

/-- Where the output window's block sits: batch row t / 4. -/
theorem outIndex : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- WHAT A WRITE-BACK WRITES is the block of the output array. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have hN : t.val < 32 := lt_of_lt_of_eq t.isLt (show cfg0.N = 32 from N_0)
  obtain ⟨e0, e1, e2⟩ := outIndex t
  show (cfg0.win 2).cut (grid0.coords t) ((dats m 0 c).after 2 t) = _
  rw [after0_2]
  funext j
  obtain ⟨u, w, d, rfl⟩ : ∃ (u : Fin 1) (w : Fin 1) (d : Fin 512), j = ix3 u w d := ⟨j 0, j 1, j 2, eq_ix3 j⟩
  obtain rfl : u = 0 := Subsingleton.elim _ _
  obtain rfl : w = 0 := Subsingleton.elim _ _
  have hb8 : t.val / 4 < 8 := by omega
  have ht : t.val = 4 * (⟨t.val / 4, hb8⟩ : Fin 8).val + 3 := by show t.val = 4 * (t.val / 4) + 3; omega
  have hn : 4 * (⟨t.val / 4, hb8⟩ : Fin 8).val + 3 < cfg0.N := by rw [← ht]; exact t.isLt
  have hemb : ((cfg0.win 2).blk t).view.emb (ix3 (0 : Fin 1) (0 : Fin 1) d) = ix3 (⟨t.val / 4, hb8⟩ : Fin 8) (0 : Fin 1) d := by
    funext a; apply Fin.ext
    match a with
    | ⟨0, _⟩ => show win0_2.index t (0 : Fin 3) * 1 + 1 * 0 = t.val / 4; omega
    | ⟨1, _⟩ => show win0_2.index t (1 : Fin 3) * 1 + 1 * 0 = 0; omega
    | ⟨2, _⟩ => show win0_2.index t (2 : Fin 3) * 512 + 1 * d.val = d.val; omega
  show ((outsAt0 m c t.val t.isLt).1 (ix3 (0 : Fin 1) (0 : Fin 1) d) : EReal) = G m c (((cfg0.win 2).blk t).view.emb (ix3 (0 : Fin 1) (0 : Fin 1) d))
  rw [hemb, outsAt_congr m c ht t.isLt hn, out_eq m c ⟨t.val / 4, hb8⟩ hn d]
  rfl

/-- An index is in point t's block iff each coordinate is in the block's range. -/
theorem mem_blk (t : Fin cfg0.N) (i : S8x1x512.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v1).slice (win0_2.rect t)).set ↔ _
  rw [View.set_slice_whole, Rect.mem_set_unit]
  exact Iff.rfl

/-- Every index of the output is in the block written back after the fourth tile of its batch row. -/
theorem cover (i : S8x1x512.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 512 := (i 2).isLt
  have hlt : 4 * (i 0).val + 3 < cfg0.N := by rw [show cfg0.N = 32 from N_0]; omega
  refine ⟨⟨4 * (i 0).val + 3, hlt⟩, (flush0_2 _).mpr (by show (4 * (i 0).val + 3) % 4 = 3; omega), ?_⟩
  obtain ⟨e0, e1, e2⟩ := outIndex ⟨4 * (i 0).val + 3, hlt⟩
  have e0' : win0_2.index ⟨4 * (i 0).val + 3, hlt⟩ (0 : Fin 3) = (4 * (i 0).val + 3) / 4 := e0
  rw [mem_blk]
  intro a
  match a with
  | ⟨0, _⟩ => show win0_2.index ⟨4 * (i 0).val + 3, hlt⟩ (0 : Fin 3) * 1 ≤ (i 0).val ∧ (i 0).val < win0_2.index ⟨4 * (i 0).val + 3, hlt⟩ (0 : Fin 3) * 1 + 1; omega
  | ⟨1, _⟩ => show win0_2.index ⟨4 * (i 0).val + 3, hlt⟩ (1 : Fin 3) * 1 ≤ (i 1).val ∧ (i 1).val < win0_2.index ⟨4 * (i 0).val + 3, hlt⟩ (1 : Fin 3) * 1 + 1; omega
  | ⟨2, _⟩ => show win0_2.index ⟨4 * (i 0).val + 3, hlt⟩ (2 : Fin 3) * 512 ≤ (i 2).val ∧ (i 2).val < win0_2.index ⟨4 * (i 0).val + 3, hlt⟩ (2 : Fin 3) * 512 + 512; omega

/-- THE OUTPUT ARRAY AFTER THE RUN. -/
theorem final (c : Dev nD) : (dats m 0 c).arrAt 2 cfg0.N = G m c :=
  (dats m 0 c).arrAt_eq_of_cover 2 (G m c) (flushed_eq m c) (cover)

/-- The host line after the region reshapes the output to 8×512. -/
theorem tail_eq (c : Dev nD) :
    (Pipeline.afterTail₀ cfgs (dats m) 0 (V0 m) [hostOps1] c main_v2 : S8x512.Idx → EReal)
      = shapeCast S8x512 (G m c) Facts₀.shapeCasts_S8x1x512_S8x512 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1) = G m c :=
    (Pipeline.withArrays_arr spec0 launch0.win.arr_inj c _ _ 2).trans (final m c)
  rw [hw]
  rfl

/-- The reshaped output at (b, d) is the output at (b, 0, d). -/
theorem result_apply (c : Dev nD) (b : Fin 8) (d : Fin 512) :
    shapeCast S8x512 (G m c) Facts₀.shapeCasts_S8x1x512_S8x512 (ix2 b d) = quot m c b d := by
  refine (shapeCast_apply (G m c) _ (ix2 b d) (ix3 b (0 : Fin 1) d) ?_).trans rfl
  rw [Shape.rowMajor_val_three, Shape.rowMajor_val_two]
  show (b.val * 1 + 0) * 512 + d.val = b.val * 512 + d.val
  omega

/-- THE KERNEL'S RUN, READ: every weakly fair execution ends with the result at the reshaped output array and the
    input unchanged. -/
theorem run : θ_run defs (onTc (τ := τ) (main (F := Ideal))) ⟨m, fun _ => 0, ρ⟩ fun r => ∀ c : Dev nD,
      r.2.mem ((c : Thread nD τ).loc main_v2) = shapeCast S8x512 (G m c) Facts₀.shapeCasts_S8x1x512_S8x512
      ∧ r.2.mem ((c : Thread nD τ).loc main_arg0) = m ((c : Thread nD τ).loc main_arg0) :=
  (θ_run defs _ _).mono (fun _ h c => ⟨((h c).2 main_v2 (by decide)).trans (tail_eq m c),
      ((h c).1 1).trans (((dats m 0 c).arrAt_in 1 rfl _).trans ((A_eq m c 1).trans (V_main_arg0 m c)))⟩)
    (run_main m ρ)

end Cert.KernelIdeal.Value

end
-- ==== Proof.RefSide.lean ====
/-
  The reference's result read index by index.

  The host program forms all scores x·xᵀ per batch row, subtracts each row's maximum (a fold of max from -∞, then a
  max with -∞ again), exponentiates, divides by the row's sum (from 0), multiplies by x, and keeps row 4095. Read at
  (b, d) this is the attention formula of the specification: the row kept is row 4095, whose scores are the last
  row against every row.
-/
import proofs.«154062_j29540785062357_2_alg».proof.Proof.Gen.ReferenceIdeal.Run
import proofs.«154062_j29540785062357_2_alg».proof.Proof.Gen.ReferenceIdeal.Read
import proofs.«154062_j29540785062357_2_alg».proof.Proof.Spec
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Attn Cert.LogShift

/-! ## The layout operations' index maps, at the coordinates that are read -/

/-- The reshape and the slice read the product at (b, 4095, d). -/
theorem idx_out (b : Fin 8) (d : Fin 512) :
    idx_main_v13 (idx_main_v14 (ix2 b d)) = ix3 b lastRow d := by
  funext a
  apply Fin.ext
  have hb := b.isLt
  have hd := d.isLt
  match a with
  | ⟨0, _⟩ => show (b.val * 512 + d.val) / 512 = b.val; omega
  | ⟨1, _⟩ => rfl
  | ⟨2, _⟩ => show (b.val * 512 + d.val) % 512 = d.val; omega

theorem lidx12 (b : Fin 8) (n : Fin 4096) (d : Fin 512) (k : Fin 4096) :
    lidx_main_v12 (ix3 b n d) k = ix3 b n k := by
  funext a
  match a with
  | ⟨0, _⟩ => rfl
  | ⟨1, _⟩ => rfl
  | ⟨2, _⟩ => rfl

theorem ridx12 (b : Fin 8) (n : Fin 4096) (d : Fin 512) (k : Fin 4096) :
    ridx_main_v12 (ix3 b n d) k = ix3 b k d := by
  funext a
  match a with
  | ⟨0, _⟩ => rfl
  | ⟨1, _⟩ => rfl
  | ⟨2, _⟩ => rfl

theorem lidx0 (b : Fin 8) (n k : Fin 4096) (q : Fin 512) :
    lidx_main_v0 (ix3 b n k) q = ix3 b n q := by
  funext a
  match a with
  | ⟨0, _⟩ => rfl
  | ⟨1, _⟩ => rfl
  | ⟨2, _⟩ => rfl

theorem ridx0 (b : Fin 8) (n k : Fin 4096) (q : Fin 512) :
    ridx_main_v0 (ix3 b n k) q = ix3 b k q := by
  funext a
  match a with
  | ⟨0, _⟩ => rfl
  | ⟨1, _⟩ => rfl
  | ⟨2, _⟩ => rfl

theorem idx45 (b : Fin 8) (n k : Fin 4096) :
    idx_main_v4 (idx_main_v5 (ix3 b n k)) = ix2 b n := by
  funext a
  match a with
  | ⟨0, _⟩ => rfl
  | ⟨1, _⟩ => rfl

theorem idx910 (b : Fin 8) (n k : Fin 4096) :
    idx_main_v9 (idx_main_v10 (ix3 b n k)) = ix2 b n := by
  funext a
  match a with
  | ⟨0, _⟩ => rfl
  | ⟨1, _⟩ => rfl

theorem idx8 (b : Fin 8) (n k : Fin 4096) :
    idx_main_v8 (ix2 b n) k = ix3 b n k := by
  funext a
  match a with
  | ⟨0, _⟩ => rfl
  | ⟨1, _⟩ => rfl
  | ⟨2, _⟩ => rfl

/-- The index over (b, n) with coordinate k on the reduced axis is (b, n, k). -/
theorem lift_ix (h : S8x4096x4096.Reduces [2] S8x4096) (b : Fin 8) (n k : Fin 4096) :
    h.lift (ix2 b n) k = ix3 b n k := by
  funext c
  apply Fin.ext
  match c with
  | ⟨0, _⟩ => rfl
  | ⟨1, _⟩ => rfl
  | ⟨2, _⟩ => rfl

/-! ## The stages at the last row -/

/-- The first product at (b, 4095, k) is the score of position k. -/
theorem v0_last (x : (⟨S8x4096x512, .f32⟩ : BufTy).Contents (Elt Ideal)) (b : Fin 8) (k : Fin 4096) :
    val_main_v0 (F := Ideal) x (ix3 b lastRow k) = score x b k := by
  rw [val_main_v0_apply]
  unfold score
  refine Finset.sum_congr rfl fun q _ => ?_
  rw [lidx0, ridx0]

/-- The max-reduce at (b, 4095) is the maximum of the scores. -/
theorem v1_last (x : (⟨S8x4096x512, .f32⟩ : BufTy).Contents (Elt Ideal)) (b : Fin 8) :
    val_main_v1 (F := Ideal) x (ix2 b lastRow) = cmax (score x b) := by
  have h : S8x4096x4096.Reduces [2] S8x4096 := by decide
  unfold val_main_v1
  rw [Host.reduce_eq_fold_single FloatOps.maximumf _ _ _ h _]
  have hf : (val_main_v0 (F := Ideal) x ∘ h.lift (ix2 b lastRow)) = score x b := by
    funext k
    show val_main_v0 (F := Ideal) x (h.lift (ix2 b lastRow) k) = score x b k
    rw [lift_ix h b lastRow k]
    exact v0_last x b k
  rw [hf, val_main_cst_apply]
  show Finset.univ.fold max (Ideal.ofBits .f32 0xFF800000#32) (score x b) = cmax (score x b)
  rw [Cert.LogShift.neg_inf]
  rfl

/-- The shift at (b, 4095): the maximum with -∞ of the row's maximum is the row's maximum. -/
theorem v3_last (x : (⟨S8x4096x512, .f32⟩ : BufTy).Contents (Elt Ideal)) (b : Fin 8) :
    val_main_v3 (F := Ideal) x (ix2 b lastRow) = cmax (score x b) := by
  rw [val_main_v3_apply, val_main_v2_apply, val_main_cst_0_apply, v1_last]
  show max (Ideal.ofBits .f32 0xFF800000#32) (cmax (score x b)) = cmax (score x b)
  rw [Cert.LogShift.neg_inf]
  exact max_eq_right bot_le

/-- The exponential at (b, 4095, k) is the shifted exponential of the score of position k. -/
theorem v7_last (x : (⟨S8x4096x512, .f32⟩ : BufTy).Contents (Elt Ideal)) (b : Fin 8) (k : Fin 4096) :
    val_main_v7 (F := Ideal) x (ix3 b lastRow k) = Ideal.exp (score x b k - cmax (score x b)) := by
  rw [val_main_v7_apply, val_main_v6_apply, val_main_v5_apply, val_main_v4_apply, idx45, v3_last, v0_last]
  rfl

/-- The sum-reduce at (b, 4095), from 0, is the sum of the shifted exponentials. -/
theorem v8_last (x : (⟨S8x4096x512, .f32⟩ : BufTy).Contents (Elt Ideal)) (b : Fin 8) :
    val_main_v8 (F := Ideal) x (ix2 b lastRow)
      = ∑ k : Fin 4096, Ideal.exp (score x b k - cmax (score x b)) := by
  rw [val_main_v8_apply, val_main_cst_1_apply]
  show Ideal.ofBits .f32 0x00000000#32 + _ = _
  rw [Ideal.ofBits_zero_f32, zero_add]
  refine Finset.sum_congr rfl fun k _ => ?_
  rw [idx8, v7_last]

/-- The quotient at (b, 4095, k) is the softmax weight of position k. -/
theorem v11_last (x : (⟨S8x4096x512, .f32⟩ : BufTy).Contents (Elt Ideal)) (b : Fin 8) (k : Fin 4096) :
    val_main_v11 (F := Ideal) x (ix3 b lastRow k)
      = Ideal.div (Ideal.exp (score x b k - cmax (score x b)))
          (∑ k' : Fin 4096, Ideal.exp (score x b k' - cmax (score x b))) := by
  rw [val_main_v11_apply, val_main_v10_apply, val_main_v9_apply, idx910, v8_last, v7_last]
  rfl

/-- The reference's result at (b, d) is the attention formula. -/
theorem ref_apply (x : (⟨S8x4096x512, .f32⟩ : BufTy).Contents (Elt Ideal)) (b : Fin 8) (d : Fin 512) :
    (val_main_v14 (F := Ideal) x (ix2 b d) : EReal) = attn x b d := by
  rw [val_main_v14_apply, val_main_v13_apply, idx_out, val_main_v12_apply]
  unfold attn
  refine Finset.sum_congr rfl fun k _ => ?_
  rw [lidx12, ridx12, v11_last]

end Cert.ReferenceIdeal.RefValue

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Bridge.lean ====
/-
  From finite inputs to the equality of the two formulas.

  The precondition says every entry of the input is a real number. Then every score (a finite sum of products of
  entries) is a real number and every column entry is a real number, so the online softmax law applies to each
  batch row b and feature d with 4 tiles of 1024 positions: the tile-by-tile quotient is the attention formula.
-/
import proofs.«154062_j29540785062357_2_alg».proof.Proof.Spec
import proofs.«154062_j29540785062357_2_alg».proof.Proof.LibOnlineSoftmax
import proofs.«154062_j29540785062357_2_alg».proof.Proof.LibRealSum
import proofs.«154062_j29540785062357_2_alg».proof.Proof.LibFiniteAll
import proofs.«154062_j29540785062357_2_alg».proof.Pre_finite_inputs

noncomputable section

open scoped BigOperators
open Idealize.ShloMosaic Idealize.ShloMosaic.ValueIdx

namespace Cert.Bridge

open Cert.Attn Cert.OnlineSoftmax

/-- FINITE INPUTS: if the printed test "all |x| < +inf" answers 1, every entry of x is a real number. -/
theorem all_real [Cert.Pre_finite_inputs.Facts] (x : XIdx → EReal)
    (h : Cert.Pre_finite_inputs.fn (F := Ideal) x = fun _ => 1#1) (i : XIdx) : ∃ r : ℝ, x i = (r : EReal) := by
  haveI : Subsingleton Cert.Pre_finite_inputs.S_.Idx := ⟨fun a b => funext fun d => d.elim0⟩
  have e := congrFun h (fun a => a.elim0)
  unfold Cert.Pre_finite_inputs.fn at e
  exact Cert.FiniteAll.all_real_of_reduce_and (s := Cert.Pre_finite_inputs.S8x4096x512) x _ _ _ _ _ _ e i

/-- THE TWO FORMULAS AGREE on an array of real numbers: the tile-by-tile quotient after the fourth tile of batch
    row b, at feature d, is the attention formula. -/
theorem online_eq_attn (x : XIdx → EReal) (hx : ∀ i, ∃ r : ℝ, x i = (r : EReal)) (b : Fin 8) (d : Fin 512) :
    Ideal.div (runA 1024 (ext (score x b)) (ext fun n : Fin 4096 => x (ix3 b n d)) 3) (runL 1024 (ext (score x b)) 3)
      = attn x b d := by
  choose ξ hξ using hx
  -- every score is a real number: a finite sum of products of real entries
  obtain ⟨σ, hs⟩ : ∃ σ : Fin 4096 → ℝ, score x b = fun n => (σ n : EReal) := by
    refine ⟨fun n => ∑ q : Fin 512, ξ (ix3 b lastRow q) * ξ (ix3 b n q), funext fun n => ?_⟩
    unfold score
    rw [← Cert.LogShift.coe_sum]
    refine Finset.sum_congr rfl fun q _ => ?_
    rw [hξ (ix3 b lastRow q), hξ (ix3 b n q), ← EReal.coe_mul]
  -- every entry of column d is a real number
  obtain ⟨ν, hv⟩ : ∃ ν : Fin 4096 → ℝ, (fun n : Fin 4096 => x (ix3 b n d)) = fun n => (ν n : EReal) :=
    ⟨fun n => ξ (ix3 b n d), funext fun n => hξ _⟩
  have hattn : attn x b d
      = ∑ n : Fin 4096, Ideal.div (Ideal.exp ((σ n : EReal) - Cert.LogShift.cmax fun n' : Fin 4096 => (σ n' : EReal)))
          (∑ n' : Fin 4096, Ideal.exp ((σ n' : EReal) - Cert.LogShift.cmax fun n'' : Fin 4096 => (σ n'' : EReal))) * (ν n : EReal) := by
    unfold attn
    rw [hs]
    exact Finset.sum_congr rfl fun n _ => by rw [show x (ix3 b n d) = (ν n : EReal) from congrFun hv n]
  rw [hattn, hs, hv]
  exact online_softmax 1024 3 (by norm_num) 4096 (by norm_num) σ ν

end Cert.Bridge

end
-- ==== Proof.lean ====
/-
  The kernel computes, for each of 8 batch rows, the last query row's self-attention over 4096 positions and 512
  features with an online softmax: the positions are visited in 4 tiles of 1024, a running maximum, normaliser and
  weighted sum are carried from tile to tile (rescaled by exp of the old maximum minus the new one), and after the
  last tile the weighted sum is divided by the normaliser. The reference forms all 4096 × 4096 scores, takes the
  softmax of every row, multiplies by the values and keeps the last row.

  On the extended reals both are the same function of a finite input. The kernel's carried scratch is the online
  softmax recurrence of the last row's scores (KernelPieces, KernelStep, KernelBlocks, KernelChain), its output
  array is that recurrence's quotient (KernelValue); the reference read at an index is the softmax-weighted sum of
  the last row (RefSide); finite inputs make every score and value a real number, for which the recurrence's
  quotient is the one-pass softmax-weighted sum (OnlineSoftmax, Bridge). The three frames are the generated frame
  runs; the idealization rewrote nothing, so its claim is trivial.
-/
import proofs.«154062_j29540785062357_2_alg».proof.Defs
import proofs.«154062_j29540785062357_2_alg».proof.Proof.Gen.Kernel
import proofs.«154062_j29540785062357_2_alg».proof.Proof.Gen.Kernel.Skeleton
import proofs.«154062_j29540785062357_2_alg».proof.Proof.Gen.Kernel.Launch
import proofs.«154062_j29540785062357_2_alg».proof.Proof.Gen.Kernel.Points
import proofs.«154062_j29540785062357_2_alg».proof.Proof.Gen.Kernel.Frame
import proofs.«154062_j29540785062357_2_alg».proof.Proof.Gen.KernelIdeal
import proofs.«154062_j29540785062357_2_alg».proof.Proof.Gen.KernelIdeal.Skeleton
import proofs.«154062_j29540785062357_2_alg».proof.Proof.Gen.KernelIdeal.Launch
import proofs.«154062_j29540785062357_2_alg».proof.Proof.Gen.KernelIdeal.Points
import proofs.«154062_j29540785062357_2_alg».proof.Proof.Gen.KernelIdeal.Frame
import proofs.«154062_j29540785062357_2_alg».proof.Proof.Gen.ReferenceIdeal
import proofs.«154062_j29540785062357_2_alg».proof.Proof.Gen.ReferenceIdeal.Run
import proofs.«154062_j29540785062357_2_alg».proof.Proof.Gen.ReferenceIdeal.Read
import proofs.«154062_j29540785062357_2_alg».proof.Proof.Gen.Pre_finite_inputs
import proofs.«154062_j29540785062357_2_alg».proof.Proof.KernelValue
import proofs.«154062_j29540785062357_2_alg».proof.Proof.RefSide
import proofs.«154062_j29540785062357_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its argument unchanged: the generated frame run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On a finite input the kernel's reshaped output and the reference's result are, at every (b, d), the online
    softmax quotient and the attention formula of the same array: equal extended reals. -/
theorem algebraic : Cert.algebraic_KernelIdeal_ReferenceIdeal := by
  intro m ρ m' ρ' hpre hagree
  refine ⟨fun c => shapeCast Cert.KernelIdeal.S8x512 (Cert.KernelIdeal.Value.G m c) Cert.KernelIdeal.Facts₀.shapeCasts_S8x1x512_S8x512,
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, hagree c]
  funext i
  obtain ⟨b, d, rfl⟩ : ∃ (b : Fin 8) (d : Fin 512), i = ix2 b d := ⟨i 0, i 1, eq_ix2 i⟩
  rw [Cert.ReferenceIdeal.RefValue.ref_apply]
  refine Eq.trans ?_ (Cert.KernelIdeal.Value.result_apply m c b d).symm
  exact (Cert.Bridge.online_eq_attn _ (Cert.Bridge.all_real _ (hpre c)) b d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
